-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S2000x128 : Shape := ⟨2, ![2000, 128]⟩
abbrev S1600000 : Shape := ⟨1, ![1600000]⟩
abbrev S384x512 : Shape := ⟨2, ![384, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S2000x128 : S_.BroadcastsInDim S2000x128 (![] : Fin 0 → Fin S2000x128.rank)
  reducesTo_S2000x128_S_d0_1 : S2000x128.ReducesTo [0, 1] S_
  bcast_S_S384x512 : S_.BroadcastsInDim S384x512 (![] : Fin 0 → Fin S384x512.rank)
  reducesTo_S384x512_S_d0_1 : S384x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg8 : FVec F S512 .f32) (main_arg9 : FVec F S512x128 .f32) (main_arg10 : FVec F S128 .f32) (main_v13 : IVec S_ 1) (main_v16 : IVec S384x512 1) : IVec S_ 1 :=
  let main_c_5 : IVec S_ 1 := constantI S_ 1 1#1
  let main_v17 : IVec S_ 1 := (fun x v => Host.reduce IntOp.andi x v reducesTo_S384x512_S_d0_1 h_S_) main_v16 main_c_5
  let main_v18 : IVec S_ 1 := andi main_v13 main_v17
  let main_v19 : FVec F S512 .f32 := Host.absf main_arg8
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128 .f32 := Host.absf main_arg9
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S50000x128 .f32) (main_arg2 : FVec F S2000x128 .f32) (main_arg3 : IVec S1600000 32) (main_arg4 : IVec S1600000 32) (main_arg5 : IVec S1600000 32) (main_arg6 : IVec S1600000 32) (main_arg7 : FVec F S384x512 .f32) (main_arg8 : FVec F S512 .f32) (main_arg9 : FVec F S512x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S2000x128 .f32 := Host.absf main_arg2
  let main_cst_2 : FVec F S_ .f32 := constant S_ .f32 0x7F800000#32
  let main_v10 : FVec F S2000x128 .f32 := broadcastInDim S2000x128 ![] bcast_S_S2000x128 main_cst_2
  let main_v11 : IVec S2000x128 1 := cmpf .olt main_v9 main_v10
  let main_c_3 : IVec S_ 1 := constantI S_ 1 1#1
  let main_v12 : IVec S_ 1 := (fun x v => Host.reduce IntOp.andi x v reducesTo_S2000x128_S_d0_1 h_S_) main_v11 main_c_3
  let main_v13 : IVec S_ 1 := andi main_v8 main_v12
  let main_v14 : FVec F S384x512 .f32 := Host.absf main_arg7
  let main_cst_4 : FVec F S_ .f32 := constant S_ .f32 0x7F800000#32
  let main_v15 : FVec F S384x512 .f32 := broadcastInDim S384x512 ![] bcast_S_S384x512 main_cst_4
  let main_v16 : IVec S384x512 1 := cmpf .olt main_v14 main_v15
  fn_part1 (F := F) main_arg8 main_arg9 main_arg10 main_v13 main_v16
-- ==== Kernel.lean ====
abbrev S100000x128 : Shape := ⟨2, ![100000, 128]⟩
abbrev S50000x128 : Shape := ⟨2, ![50000, 128]⟩
abbrev S2000x128 : Shape := ⟨2, ![2000, 128]⟩
abbrev S1600000 : Shape := ⟨1, ![1600000]⟩
abbrev S384x512 : Shape := ⟨2, ![384, 512]⟩
abbrev S512 : Shape := ⟨1, ![512]⟩
abbrev S512x128 : Shape := ⟨2, ![512, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x512 : Shape := ⟨2, ![1, 512]⟩
abbrev S1x128 : Shape := ⟨2, ![1, 128]⟩
abbrev S2000x384 : Shape := ⟨2, ![2000, 384]⟩
abbrev S2000x512 : Shape := ⟨2, ![2000, 512]⟩

abbrev nBuf : Space → Nat
  | .hbm => 64
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2000x128, .f32⟩
  | .hbm, ⟨3, _⟩ => ⟨S1600000, .i32⟩
  | .hbm, ⟨4, _⟩ => ⟨S1600000, .i32⟩
  | .hbm, ⟨5, _⟩ => ⟨S1600000, .i32⟩
  | .hbm, ⟨6, _⟩ => ⟨S1600000, .i32⟩
  | .hbm, ⟨7, _⟩ => ⟨S384x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S100000x1, .f32⟩
  | .hbm, ⟨56, _⟩ => ⟨S_, .f32⟩
  | .hbm, ⟨57, _⟩ => ⟨S100000x1, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S1x512, .f32⟩
  | .hbm, ⟨62, _⟩ => ⟨S1x128, .f32⟩
  | .hbm, ⟨63, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S384x512, .f32⟩
  | .local _ .vmem, ⟨7, _⟩ => ⟨S1x512, .f32⟩
  | .local _ .vmem, ⟨8, _⟩ => ⟨S512x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  shapeCasts_S512_S1x512 : S512.ShapeCasts S1x512
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x128_S2000x384_d1 : Shape.Concatenates [S2000x128, S2000x128, S2000x128] S2000x384 1
  bitsLt_bf16_f32 : FTy.bits .bf16 < FTy.bits .f32
  inb_S384x512_S384x512_0_0 : ∀ a, (![0, 0] : Fin 2 → Nat) a + S384x512.size a ≤ S384x512.size a
  h_S384x512 : 0 < S384x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S2000x128_S1600000x1_S1600000x128_1_0_n_n_0_1_1128_wf : GatherDims.WF S2000x128 S1600000x1 S1600000x128 [1] [0] [] [0] [] 1 ![1, 128]
  dot_S2000x384_S384x512_S2000x512_1_0_0_1_n_n_wf : DotDims.WF S2000x384 S384x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x512.size a ≤ S384x512.size a
  hwx0_3 : ∀ i : grid0.Coords, EltTy.bits .f32 = 32 ∨ (Rect.block (s := S384x512) S384x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S2000x128_S1600000x1_S1600000x128_1_0_n_n_0_1_1128 : GatherDims S2000x128 S1600000x1 S1600000x128 where
  offsetDims := [1]
  collapsedSliceDims := [0]
  operandBatchingDims := []
  startIndicesBatchingDims := []
  startIndexMap := [0]
  indexVectorDim := 1
  sliceSizes := ![1, 128]
  wf := gather_S2000x128_S1600000x1_S1600000x128_1_0_n_n_0_1_1128_wf
def dot_S2000x384_S384x512_S2000x512_1_0_0_1_n_n : DotDims S2000x384 S384x512 S2000x512 where
  lhsContracting := [1]
  rhsContracting := [0]
  lhsNonContracting := [0]
  rhsNonContracting := [1]
  lhsBatch := []
  rhsBatch := []
  wf := dot_S2000x384_S384x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S384x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S2000x128 : Shape := ⟨2, ![2000, 128]⟩
abbrev S1600000 : Shape := ⟨1, ![1600000]⟩
abbrev S384x512 : Shape := ⟨2, ![384, 512]⟩
abbrev S512 : Shape := ⟨1, ![512]⟩
abbrev S512x128 : Shape := ⟨2, ![512, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x384 : Shape := ⟨2, ![100000, 384]⟩
abbrev S100000x512 : Shape := ⟨2, ![100000, 512]⟩
abbrev S1x512 : Shape := ⟨2, ![1, 512]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2000x128, .f32⟩
  | .hbm, ⟨3, _⟩ => ⟨S1600000, .i32⟩
  | .hbm, ⟨4, _⟩ => ⟨S1600000, .i32⟩
  | .hbm, ⟨5, _⟩ => ⟨S1600000, .i32⟩
  | .hbm, ⟨6, _⟩ => ⟨S1600000, .i32⟩
  | .hbm, ⟨7, _⟩ => ⟨S384x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S100000x1, .f32⟩
  | .hbm, ⟨56, _⟩ => ⟨S_, .f32⟩
  | .hbm, ⟨57, _⟩ => ⟨S100000x1, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S100000x384, .f32⟩
  | .hbm, ⟨62, _⟩ => ⟨S100000x512, .f32⟩
  | .hbm, ⟨63, _⟩ => ⟨S1x512, .f32⟩
  | .hbm, ⟨64, _⟩ => ⟨S100000x512, .f32⟩
  | .hbm, ⟨65, _⟩ => ⟨S100000x512, .f32⟩
  | .hbm, ⟨66, _⟩ => ⟨S100000x512, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S100000x128_S100000x128_S100000x128_S100000x384_d1 : Shape.Concatenates [S100000x128, S100000x128, S100000x128] S100000x384 1
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S2000x128_S1600000x1_S1600000x128_1_0_n_n_0_1_1128_wf : GatherDims.WF S2000x128 S1600000x1 S1600000x128 [1] [0] [] [0] [] 1 ![1, 128]
  dot_S100000x384_S384x512_S100000x512_1_0_0_1_n_n_wf : DotDims.WF S100000x384 S384x512 S100000x512 [1] [0] [0] [1] [] []
  dot_S100000x512_S512x128_S100000x128_1_0_0_1_n_n_wf : DotDims.WF S100000x512 S512x128 S100000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S2000x128_S1600000x1_S1600000x128_1_0_n_n_0_1_1128 : GatherDims S2000x128 S1600000x1 S1600000x128 where
  offsetDims := [1]
  collapsedSliceDims := [0]
  operandBatchingDims := []
  startIndicesBatchingDims := []
  startIndexMap := [0]
  indexVectorDim := 1
  sliceSizes := ![1, 128]
  wf := gather_S2000x128_S1600000x1_S1600000x128_1_0_n_n_0_1_1128_wf
def dot_S100000x384_S384x512_S100000x512_1_0_0_1_n_n : DotDims S100000x384 S384x512 S100000x512 where
  lhsContracting := [1]
  rhsContracting := [0]
  lhsNonContracting := [0]
  rhsNonContracting := [1]
  lhsBatch := []
  rhsBatch := []
  wf := dot_S100000x384_S384x512_S100000x512_1_0_0_1_n_n_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf

class Facts : Prop extends Facts₀ where

variable [Facts]
-- ==== Proof.LibConcat3.lean ====
/-
  Three arrays of one shape [R, n] laid side by side along the lanes, read at an index.

  The concatenation of three [R, n] arrays along axis 1 is an [R, w] array with w = n + n + n. Its entry in row r
  and lane l comes from the piece whose span of lanes holds l: the first at lane l when l < n, the second at lane
  l - n when n ≤ l < n + n, the third at lane l - (n + n) otherwise; the row is the same in every case.
-/
import Idealize.ShloMosaic.Lib.Pipeline.Value
import Idealize.ShloMosaic.Lib.ValueIdx

namespace Cert.LibConcat3

open Idealize.ShloMosaic Idealize.ShloMosaic.ValueIdx

/-- Row `r`, lane `l` of three [R, n] arrays laid side by side: the piece whose lanes hold `l`, at `l` less the
    lanes of the pieces before it. -/
def side3 {α : Type} {R n w : Nat} (hw : w = n + n + n) (a b c : (⟨2, ![R, n]⟩ : Shape).Idx → α)
    (r : Fin R) (l : Fin w) : α :=
  if h0 : l.val < n then a (ix2 r ⟨l.val, h0⟩)
  else if h1 : l.val < n + n then b (ix2 r ⟨l.val - n, by omega⟩)
  else c (ix2 r ⟨l.val - (n + n), by have := l.isLt; omega⟩)

/-- `side3` reads one row of each piece: pieces that agree on the rows read give the same row of 3 n lanes. -/
theorem side3_congr {α : Type} {R R' n w : Nat} (hw : w = n + n + n)
    {a b c : (⟨2, ![R, n]⟩ : Shape).Idx → α} {a' b' c' : (⟨2, ![R', n]⟩ : Shape).Idx → α} {r : Fin R} {r' : Fin R'}
    (ha : ∀ q : Fin n, a (ix2 r q) = a' (ix2 r' q)) (hb : ∀ q : Fin n, b (ix2 r q) = b' (ix2 r' q))
    (hc : ∀ q : Fin n, c (ix2 r q) = c' (ix2 r' q)) :
    side3 hw a b c r = side3 hw a' b' c' r' := by
  funext l
  unfold side3
  by_cases h0 : l.val < n
  · rw [dif_pos h0, dif_pos h0]; exact ha _
  · rw [dif_neg h0, dif_neg h0]
    by_cases h1 : l.val < n + n
    · rw [dif_pos h1, dif_pos h1]; exact hb _
    · rw [dif_neg h1, dif_neg h1]; exact hc _

/-- **The concatenation of three [R, n] arrays along the lanes, read at row `r` and lane `l`**, is `side3`. -/
theorem concatenate3_lanes_apply {α : Type} {R n w : Nat} (hw : w = n + n + n)
    (a b c : (⟨2, ![R, n]⟩ : Shape).Idx → α)
    (h : Shape.Concatenates ([(⟨⟨2, ![R, n]⟩, a⟩ : (s : Shape) × (s.Idx → α)), ⟨⟨2, ![R, n]⟩, b⟩, ⟨⟨2, ![R, n]⟩, c⟩].map (·.1))
      ⟨2, ![R, w]⟩ (1 : Fin 2))
    (r : Fin R) (l : Fin w) :
    concatenate ⟨2, ![R, w]⟩ (1 : Fin 2) [⟨⟨2, ![R, n]⟩, a⟩, ⟨⟨2, ![R, n]⟩, b⟩, ⟨⟨2, ![R, n]⟩, c⟩] h (ix2 r l)
      = side3 hw a b c r l := by
  unfold side3
  have hoff : ∀ (i : (⟨2, ![R, n]⟩ : Shape).Idx), (i 0).val = r.val →
      ∀ bb : Fin (⟨2, ![R, n]⟩ : Shape).rank, bb.cast (rfl : (⟨2, ![R, n]⟩ : Shape).rank = (⟨2, ![R, w]⟩ : Shape).rank) ≠ (1 : Fin 2) →
        (i bb).val = ((ix2 r l : (⟨2, ![R, w]⟩ : Shape).Idx) (bb.cast rfl)).val := by
    intro i hi bb hbb
    match bb with
    | ⟨0, _⟩ => exact hi
    | ⟨1, _⟩ => exact absurd rfl hbb
  by_cases h0 : l.val < n
  · rw [dif_pos h0]
    exact concatenate_apply_piece (1 : Fin 2) _ h (ix2 r l) 0 (by simp) ⟨2, ![R, n]⟩ a rfl rfl 0 rfl
      (ix2 r ⟨l.val, h0⟩) (hoff _ rfl) (by show 0 + l.val = l.val; omega)
  · rw [dif_neg h0]
    by_cases h1 : l.val < n + n
    · rw [dif_pos h1]
      exact concatenate_apply_piece (1 : Fin 2) _ h (ix2 r l) 1 (by simp) ⟨2, ![R, n]⟩ b rfl rfl n (by simp)
        (ix2 r ⟨l.val - n, by omega⟩) (hoff _ rfl) (by show n + (l.val - n) = l.val; omega)
    · rw [dif_neg h1]
      exact concatenate_apply_piece (1 : Fin 2) _ h (ix2 r l) 2 (by simp) ⟨2, ![R, n]⟩ c rfl rfl (n + n) (by simp)
        (ix2 r ⟨l.val - (n + n), by have := l.isLt; omega⟩) (hoff _ rfl)
        (by show n + n + (l.val - (n + n)) = l.val; omega)

end Cert.LibConcat3
-- ==== Proof.Spec.lean ====
/-
  The function both programs compute, index by index, on the extended reals.

  A row of the result depends on one row of each of three [100000, 128] feature arrays, laid side by side into
  384 features x. The hidden layer has 512 units, unit k at tanh (Σ_l x l · w1 l k + b1 k); the output has 128
  lanes, lane j at Σ_k hidden k · w2 k j + b2 j. Both sums are plain finite sums of extended reals taken in one
  piece, so no law that needs finite operands is used anywhere: the two programs differ only in how they tile the
  rows, not in how they group a sum.
-/
import Idealize.ShloMosaic.PureOps.Ideal
import Idealize.ShloMosaic.Lib.ValueIdx
import proofs.«176909_j71502615544009_1_alg».proof.Proof.LibConcat3

noncomputable section

namespace Cert.Mlp

open Idealize.ShloMosaic Idealize.ShloMosaic.ValueIdx Cert.LibConcat3

/-- Hidden unit `k` of a row with features `x`: `tanh (Σ_l x l · w1 l k + b1 k)`. -/
def hidden (x : Fin 384 → EReal) (w1 : Fin 384 → Fin 512 → EReal) (b1 : Fin 512 → EReal) (k : Fin 512) : EReal :=
  Ideal.tanh ((∑ l : Fin 384, x l * w1 l k) + b1 k)

/-- Output lane `j` of a row with features `x`: `Σ_k hidden k · w2 k j + b2 j`. -/
def out (x : Fin 384 → EReal) (w1 : Fin 384 → Fin 512 → EReal) (b1 : Fin 512 → EReal)
    (w2 : Fin 512 → Fin 128 → EReal) (b2 : Fin 128 → EReal) (j : Fin 128) : EReal :=
  (∑ k : Fin 512, hidden x w1 b1 k * w2 k j) + b2 j

theorem e384 : 384 = 128 + 128 + 128 := rfl

/-- The whole result: entry (r, j) is output lane `j` of the row made of row `r` of the three feature arrays. -/
def G (a b c : (⟨2, ![100000, 128]⟩ : Shape).Idx → EReal) (w1 : (⟨2, ![384, 512]⟩ : Shape).Idx → EReal)
    (b1 : (⟨1, ![512]⟩ : Shape).Idx → EReal) (w2 : (⟨2, ![512, 128]⟩ : Shape).Idx → EReal)
    (b2 : (⟨1, ![128]⟩ : Shape).Idx → EReal) : (⟨2, ![100000, 128]⟩ : Shape).Idx → EReal :=
  fun i => out (side3 e384 a b c ⟨(i 0).val, idx2_lt0 i⟩) (fun l k => w1 (ix2 l k)) (fun k => b1 (ix1 k))
    (fun k j => w2 (ix2 k j)) (fun j => b2 (ix1 j)) ⟨(i 1).val, idx2_lt1 i⟩

theorem G_ix2 (a b c : (⟨2, ![100000, 128]⟩ : Shape).Idx → EReal) (w1 : (⟨2, ![384, 512]⟩ : Shape).Idx → EReal)
    (b1 : (⟨1, ![512]⟩ : Shape).Idx → EReal) (w2 : (⟨2, ![512, 128]⟩ : Shape).Idx → EReal)
    (b2 : (⟨1, ![128]⟩ : Shape).Idx → EReal) (r : Fin 100000) (j : Fin 128) :
    G a b c w1 b1 w2 b2 (ix2 r j) = out (side3 e384 a b c r) (fun l k => w1 (ix2 l k)) (fun k => b1 (ix1 k))
      (fun k j => w2 (ix2 k j)) (fun j => b2 (ix1 j)) j := rfl

end Cert.Mlp

end
-- ==== Proof.BodyValue.lean ====
/-
  What the kernel body stores, entry by entry.

  At a grid point the body holds one 2000-row block of each feature array, the two weight matrices whole, and the
  two bias rows as [1, n] arrays. Its stored value at row p and lane q of the block is output lane q of the row made
  of row p of the three blocks: the rounding to bf16 before each matrix product is the identity on extended reals,
  a matrix product into the zero accumulator is the plain sum over the contracted axis, and a [1, n] row broadcast
  over the block's rows reads its one row.
-/
import proofs.«176909_j71502615544009_1_alg».proof.Proof.Gen.KernelIdeal.Skeleton
import proofs.«176909_j71502615544009_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx Cert.LibConcat3

/-! ## The two matrix products at an index -/

abbrev D1 := dot_S2000x384_S384x512_S2000x512_1_0_0_1_n_n
abbrev D2 := dot_S2000x512_S512x128_S2000x128_1_0_0_1_n_n

theorem D1_lhs0 (i : S2000x512.Idx) (q : D1.contr.Idx) : (D1.lhsIdx i q 0).val = (i 0).val := by
  unfold DotDims.lhsIdx
  rw [dif_neg (show ¬(0 : Fin S2000x384.rank) ∈ D1.lhsBatch by decide), dif_pos (show (0 : Fin S2000x384.rank) ∈ D1.lhsNonContracting by decide)]
  rfl
theorem D1_lhs1 (i : S2000x512.Idx) (q : D1.contr.Idx) : (D1.lhsIdx i q 1).val = (q ⟨0, by decide⟩).val :=
  D1.lhsIdx_val_of_single rfl i q
theorem D1_rhs0 (i : S2000x512.Idx) (q : D1.contr.Idx) : (D1.rhsIdx i q 0).val = (q ⟨0, by decide⟩).val :=
  D1.rhsIdx_val_of_single rfl i q
theorem D1_rhs1 (i : S2000x512.Idx) (q : D1.contr.Idx) : (D1.rhsIdx i q 1).val = (i 1).val := by
  unfold DotDims.rhsIdx
  rw [dif_neg (show ¬(1 : Fin S384x512.rank) ∈ D1.rhsBatch by decide), dif_pos (show (1 : Fin S384x512.rank) ∈ D1.rhsNonContracting by decide)]
  rfl

/-- The first product into the zero accumulator, at row `p` and column `k`: the sum over the 384 features. -/
theorem mm1_apply (l : FVec Ideal S2000x384 .bf16) (r : FVec Ideal S384x512 .bf16) (p : Fin 2000) (k : Fin 512) :
    matmul D1 none l r (constant (F := Ideal) S2000x512 .f32 0x00000000#32) (ix2 p k)
      = ∑ a : Fin 384, l (ix2 p a) * r (ix2 a k) := by
  refine (Ideal.matmul_constant_zero_apply D1 none l r (ix2 p k)).trans ?_
  rw [← Equiv.sum_comp (contrEquiv1 D1 384 rfl rfl).symm]
  refine Finset.sum_congr rfl fun a _ => ?_
  have hk := contrEquiv1_symm_val D1 384 rfl rfl a
  have el : D1.lhsIdx (ix2 p k) ((contrEquiv1 D1 384 rfl rfl).symm a) = ix2 p a := funext fun d => Fin.ext (by
    match d with
    | ⟨0, _⟩ => exact D1_lhs0 _ _
    | ⟨1, _⟩ => exact (D1_lhs1 _ _).trans hk)
  have er : D1.rhsIdx (ix2 p k) ((contrEquiv1 D1 384 rfl rfl).symm a) = ix2 a k := funext fun d => Fin.ext (by
    match d with
    | ⟨0, _⟩ => exact (D1_rhs0 _ _).trans hk
    | ⟨1, _⟩ => exact D1_rhs1 _ _)
  rw [el, er]

theorem D2_lhs0 (i : S2000x128.Idx) (q : D2.contr.Idx) : (D2.lhsIdx i q 0).val = (i 0).val := by
  unfold DotDims.lhsIdx
  rw [dif_neg (show ¬(0 : Fin S2000x512.rank) ∈ D2.lhsBatch by decide), dif_pos (show (0 : Fin S2000x512.rank) ∈ D2.lhsNonContracting by decide)]
  rfl
theorem D2_lhs1 (i : S2000x128.Idx) (q : D2.contr.Idx) : (D2.lhsIdx i q 1).val = (q ⟨0, by decide⟩).val :=
  D2.lhsIdx_val_of_single rfl i q
theorem D2_rhs0 (i : S2000x128.Idx) (q : D2.contr.Idx) : (D2.rhsIdx i q 0).val = (q ⟨0, by decide⟩).val :=
  D2.rhsIdx_val_of_single rfl i q
theorem D2_rhs1 (i : S2000x128.Idx) (q : D2.contr.Idx) : (D2.rhsIdx i q 1).val = (i 1).val := by
  unfold DotDims.rhsIdx
  rw [dif_neg (show ¬(1 : Fin S512x128.rank) ∈ D2.rhsBatch by decide), dif_pos (show (1 : Fin S512x128.rank) ∈ D2.rhsNonContracting by decide)]
  rfl

/-- The second product into the zero accumulator, at row `p` and lane `q`: the sum over the 512 hidden units. -/
theorem mm2_apply (l : FVec Ideal S2000x512 .bf16) (r : FVec Ideal S512x128 .bf16) (p : Fin 2000) (q : Fin 128) :
    matmul D2 none l r (constant (F := Ideal) S2000x128 .f32 0x00000000#32) (ix2 p q)
      = ∑ k : Fin 512, l (ix2 p k) * r (ix2 k q) := by
  refine (Ideal.matmul_constant_zero_apply D2 none l r (ix2 p q)).trans ?_
  rw [← Equiv.sum_comp (contrEquiv1 D2 512 rfl rfl).symm]
  refine Finset.sum_congr rfl fun k _ => ?_
  have hk := contrEquiv1_symm_val D2 512 rfl rfl k
  have el : D2.lhsIdx (ix2 p q) ((contrEquiv1 D2 512 rfl rfl).symm k) = ix2 p k := funext fun d => Fin.ext (by
    match d with
    | ⟨0, _⟩ => exact D2_lhs0 _ _
    | ⟨1, _⟩ => exact (D2_lhs1 _ _).trans hk)
  have er : D2.rhsIdx (ix2 p q) ((contrEquiv1 D2 512 rfl rfl).symm k) = ix2 k q := funext fun d => Fin.ext (by
    match d with
    | ⟨0, _⟩ => exact (D2_rhs0 _ _).trans hk
    | ⟨1, _⟩ => exact D2_rhs1 _ _)
  rw [el, er]

/-! ## The stored value at an index -/

/-- The three feature blocks laid side by side (the second and third through a cast to their own shape, which is
    the identity), read at row `p` and lane `l`. -/
theorem feat_apply (x0 x1 x2 : FVec Ideal S2000x128 .f32) (p : Fin 2000) (l : Fin 384) :
    concatenate S2000x384 1 [⟨S2000x128, x0⟩, ⟨S2000x128, shapeCast S2000x128 x1 Facts₀.shapeCasts_S2000x128_S2000x128⟩,
        ⟨S2000x128, shapeCast S2000x128 x2 Facts₀.shapeCasts_S2000x128_S2000x128⟩]
      Facts₀.concatenates_S2000x128_S2000x128_S2000x128_S2000x384_d1 (ix2 p l)
      = side3 Cert.Mlp.e384 x0 x1 x2 p l := by
  refine (concatenate3_lanes_apply Cert.Mlp.e384 _ _ _ _ p l).trans ?_
  rw [shapeCast_self x1, shapeCast_self x2]

/-- **The body's stored value at row `p`, lane `q` of the block** is output lane `q` of the row made of row `p` of
    the three feature blocks, with the weights and the bias rows as the body holds them. -/
theorem pay_apply (x0 x1 x2 : FVec Ideal S2000x128 .f32) (x3 : FVec Ideal S384x512 .f32) (x4 : FVec Ideal S1x512 .f32)
    (x5 : FVec Ideal S512x128 .f32) (x6 : FVec Ideal S1x128 .f32) (p : Fin 2000) (q : Fin 128) :
    k0_pay1 (F := Ideal) x0 x1 x2 x3 x4 x5 x6 (ix2 p q)
      = Cert.Mlp.out (side3 Cert.Mlp.e384 x0 x1 x2 p) (fun l k => x3 (ix2 l k)) (fun k => x4 (ix2 (0 : Fin 1) k))
          (fun k j => x5 (ix2 k j)) (fun j => x6 (ix2 (0 : Fin 1) j)) q := by
  unfold k0_pay1
  simp only [shapeCast_self]
  show matmul D2 none _ _ (constant (F := Ideal) S2000x128 .f32 0x00000000#32) (ix2 p q)
      + broadcastTo S2000x128 x6 _ (ix2 p q) = _
  rw [mm2_apply, broadcastTo_1b_ab_apply]
  unfold Cert.Mlp.out
  refine congrArg (· + x6 (ix2 (0 : Fin 1) q)) (Finset.sum_congr rfl fun k _ => ?_)
  show Ideal.tanh (matmul D1 none _ _ (constant (F := Ideal) S2000x512 .f32 0x00000000#32) (ix2 p k)
      + broadcastTo S2000x512 x4 _ (ix2 p k)) * x5 (ix2 k q) = _
  rw [mm1_apply, broadcastTo_1b_ab_apply]
  unfold Cert.Mlp.hidden
  refine congrArg (fun z => Ideal.tanh (z + x4 (ix2 (0 : Fin 1) k)) * x5 (ix2 k q)) (Finset.sum_congr rfl fun l _ => ?_)
  exact congrArg (· * x3 (ix2 l k)) (feat_apply x0 x1 x2 p l)

end Cert.KernelIdeal.BodyValue

end
-- ==== Proof.HostArrays.lean ====
/-
  What the region finds in the arrays that the host part of the kernel's program writes.

  Before the region the program computes, for each of the 100000 rows, the average of the entity rows and the
  average of the topic rows linked to it (a gather of the linked rows, a sum of them into the row's bucket, a count
  of the links, and a division of the sum by the count plus a small constant), and recasts each bias vector as a
  one-row array. The two averages are named here as functions of the arguments and are never opened: the reference
  computes them by the same operations.
-/
import proofs.«176909_j71502615544009_1_alg».proof.Proof.Gen.KernelIdeal.Frame
import Idealize.ShloMosaic.Lib.StableHlo.Run
import Idealize.ShloMosaic.Lib.ValueLayout

noncomputable section

namespace Cert.KernelIdeal.HostArrays

open Cert.KernelIdeal Idealize.ShloMosaic Idealize.ShloMosaic.TcCoe Idealize.SL.Sem Idealize.ShloMosaic.StableHlo
open Idealize.ShloMosaic.ValueIdx
open Cert.KernelIdeal.Facts₀

/-- The average of the entity rows linked to each of the 100000 rows: the linked rows gathered (a negative link
    index counted from the end), summed into the row's bucket, and divided by the number of links plus a small constant. -/
def entAvg (x1 : FVec Ideal S50000x128 .f32) (x3 x4 : IVec S1600000 32) : FVec Ideal S100000x128 .f32 :=
  Host.divf (F := Ideal) (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (x3)) (Host.gather gather_S50000x128_S1600000x1_S1600000x128_1_0_n_n_0_1_1128 (x1) (broadcastInDim S1600000x1 ![0] bcast_S1600000_S1600000x1_0 (select (cmpi .slt (x4) (broadcastInDim S1600000 ![] bcast_S_S1600000 (constantI S_ 32 0#32))) (addi (x4) (broadcastInDim S1600000 ![] bcast_S_S1600000 (constantI S_ 32 50000#32))) (x4))))) (broadcastInDim S100000x128 ![0, 1] bcast_S100000x1_S100000x128_0_1 (addf (F := Ideal) (broadcastInDim S100000x1 ![0] bcast_S100000_S100000x1_0 (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (x3)) (broadcastInDim S1600000 ![] bcast_S_S1600000 (constant (F := Ideal) S_ .f32 0x3F800000#32)))) (broadcastInDim S100000x1 ![] bcast_S_S100000x1 (constant (F := Ideal) S_ .f32 0x322BCC77#32))))

/-- The same average over the topic rows. -/
def topAvg (x2 : FVec Ideal S2000x128 .f32) (x5 x6 : IVec S1600000 32) : FVec Ideal S100000x128 .f32 :=
  Host.divf (F := Ideal) (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (x5)) (Host.gather gather_S2000x128_S1600000x1_S1600000x128_1_0_n_n_0_1_1128 (x2) (broadcastInDim S1600000x1 ![0] bcast_S1600000_S1600000x1_0 (select (cmpi .slt (x6) (broadcastInDim S1600000 ![] bcast_S_S1600000 (constantI S_ 32 0#32))) (addi (x6) (broadcastInDim S1600000 ![] bcast_S_S1600000 (constantI S_ 32 2000#32))) (x6))))) (broadcastInDim S100000x128 ![0, 1] bcast_S100000x1_S100000x128_0_1 (addf (F := Ideal) (broadcastInDim S100000x1 ![0] bcast_S100000_S100000x1_0 (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (x5)) (broadcastInDim S1600000 ![] bcast_S_S1600000 (constant (F := Ideal) S_ .f32 0x3F800000#32)))) (broadcastInDim S100000x1 ![] bcast_S_S100000x1 (constant (F := Ideal) S_ .f32 0x322BCC77#32))))

variable (m : (ℓ : Loc nD τ sig) → Buf (Elt Ideal) ℓ)

set_option maxRecDepth 8192 in
set_option maxHeartbeats 2000000 in
/-- The region finds the entity average of the arguments in the second feature array. -/
theorem V_main_v18 (c : Dev nD) :
    (Gen.V m c main_v18 : S100000x128.Idx → EReal)
      = entAvg (m ((c : Thread nD τ).loc main_arg1)) (m ((c : Thread nD τ).loc main_arg3)) (m ((c : Thread nD τ).loc main_arg4)) := by
  dsimp only [Gen.V, Gen.hostOps0]
  after_results_simp <;> rfl

set_option maxRecDepth 8192 in
set_option maxHeartbeats 2000000 in
/-- The region finds the topic average of the arguments in the third feature array. -/
theorem V_main_v37 (c : Dev nD) :
    (Gen.V m c main_v37 : S100000x128.Idx → EReal)
      = topAvg (m ((c : Thread nD τ).loc main_arg2)) (m ((c : Thread nD τ).loc main_arg5)) (m ((c : Thread nD τ).loc main_arg6)) := by
  dsimp only [Gen.V, Gen.hostOps0]
  after_results_simp <;> rfl

/-- The first bias as the region finds it: the [512] vector recast as one row. -/
theorem V_main_v38 (c : Dev nD) :
    (Gen.V m c main_v38 : S1x512.Idx → EReal)
      = shapeCast S1x512 (m ((c : Thread nD τ).loc main_arg8)) shapeCasts_S512_S1x512 := by
  dsimp only [Gen.V, Gen.hostOps0]
  after_results
  rfl

/-- The second bias as the region finds it: the [128] vector recast as one row. -/
theorem V_main_v39 (c : Dev nD) :
    (Gen.V m c main_v39 : S1x128.Idx → EReal)
      = shapeCast S1x128 (m ((c : Thread nD τ).loc main_arg10)) shapeCasts_S128_S1x128 := by
  dsimp only [Gen.V, Gen.hostOps0]
  after_results
  rfl

end Cert.KernelIdeal.HostArrays

end
-- ==== Proof.BlockReads.lean ====
/-
  Each window's block at a grid point, read at an index of the block.

  The grid has 50 points. At point t the three feature windows are at block (t, 0) of their [100000, 128] arrays, so
  row p of the block is row 2000 t + p of the array; the two weight matrices and the two bias rows are whole at
  every point. The second and third feature arrays are the two neighbour averages the host part computed, and the
  bias rows are the bias vectors recast as one row.
-/
import proofs.«176909_j71502615544009_1_alg».proof.Proof.Gen.KernelIdeal.Frame
import proofs.«176909_j71502615544009_1_alg».proof.Proof.HostArrays

noncomputable section

namespace Cert.KernelIdeal.BlockReads

open Cert.KernelIdeal Cert.KernelIdeal.Gen Idealize.ShloMosaic Idealize.ShloMosaic.TcCoe Idealize.SL.Sem
open Idealize.ShloMosaic.ValueIdx Cert.KernelIdeal.HostArrays
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 50 grid points: the three feature windows and the result window are at
    block (t, 0) at point t; the weights and the bias rows are at block (0, 0) at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem lt50 (t : Fin cfg0.N) : t.val < 50 := lt_of_lt_of_eq t.isLt N_0

/-- Row `p` of the block of point `t` is row `2000 t + p` of the array. -/
def row (t : Fin cfg0.N) (p : Fin 2000) : Fin 100000 := ⟨t.val * 2000 + p.val, by have := lt50 t; omega⟩

/-! ## A window's block of ANY array contents, read at an index

Stated over a variable array `f`, so that nothing about how the region's arrays were computed is ever opened. -/

theorem read0 (f : S100000x128.Idx → EReal) (t : Fin cfg0.N) (p : Fin 2000) (q : Fin 128) :
    ((cfg0.win 0).blk t).view.read (Elt Ideal) f (ix2 p q) = f (ix2 (row t p) q) := by
  obtain ⟨e0, e1, -⟩ := idx_facts t
  have hemb : ((cfg0.win 0).blk t).view.emb (ix2 p q) = (ix2 (row t p) q : S100000x128.Idx) := funext fun a => Fin.ext (by
    match a with
    | ⟨0, _⟩ => show win0_0.index t (0 : Fin 2) * 2000 + 1 * p.val = t.val * 2000 + p.val; omega
    | ⟨1, _⟩ => show win0_0.index t (1 : Fin 2) * 128 + 1 * q.val = q.val; omega)
  show f (((cfg0.win 0).blk t).view.emb (ix2 p q)) = _
  rw [hemb]

theorem read1 (f : S100000x128.Idx → EReal) (t : Fin cfg0.N) (p : Fin 2000) (q : Fin 128) :
    ((cfg0.win 1).blk t).view.read (Elt Ideal) f (ix2 p q) = f (ix2 (row t p) q) := by
  obtain ⟨-, -, e0, e1, -⟩ := idx_facts t
  have hemb : ((cfg0.win 1).blk t).view.emb (ix2 p q) = (ix2 (row t p) q : S100000x128.Idx) := funext fun a => Fin.ext (by
    match a with
    | ⟨0, _⟩ => show win0_1.index t (0 : Fin 2) * 2000 + 1 * p.val = t.val * 2000 + p.val; omega
    | ⟨1, _⟩ => show win0_1.index t (1 : Fin 2) * 128 + 1 * q.val = q.val; omega)
  show f (((cfg0.win 1).blk t).view.emb (ix2 p q)) = _
  rw [hemb]

theorem read2 (f : S100000x128.Idx → EReal) (t : Fin cfg0.N) (p : Fin 2000) (q : Fin 128) :
    ((cfg0.win 2).blk t).view.read (Elt Ideal) f (ix2 p q) = f (ix2 (row t p) q) := by
  obtain ⟨-, -, -, -, e0, e1, -⟩ := idx_facts t
  have hemb : ((cfg0.win 2).blk t).view.emb (ix2 p q) = (ix2 (row t p) q : S100000x128.Idx) := funext fun a => Fin.ext (by
    match a with
    | ⟨0, _⟩ => show win0_2.index t (0 : Fin 2) * 2000 + 1 * p.val = t.val * 2000 + p.val; omega
    | ⟨1, _⟩ => show win0_2.index t (1 : Fin 2) * 128 + 1 * q.val = q.val; omega)
  show f (((cfg0.win 2).blk t).view.emb (ix2 p q)) = _
  rw [hemb]

theorem read3 (f : S384x512.Idx → EReal) (t : Fin cfg0.N) (l : Fin 384) (k : Fin 512) :
    ((cfg0.win 3).blk t).view.read (Elt Ideal) f (ix2 l k) = f (ix2 l k) := by
  obtain ⟨-, -, -, -, -, -, e0, e1, -⟩ := idx_facts t
  have hemb : ((cfg0.win 3).blk t).view.emb (ix2 l k) = (ix2 l k : S384x512.Idx) := funext fun a => Fin.ext (by
    match a with
    | ⟨0, _⟩ => show win0_3.index t (0 : Fin 2) * 384 + 1 * l.val = l.val; omega
    | ⟨1, _⟩ => show win0_3.index t (1 : Fin 2) * 512 + 1 * k.val = k.val; omega)
  show f (((cfg0.win 3).blk t).view.emb (ix2 l k)) = _
  rw [hemb]

theorem read4 (f : S1x512.Idx → EReal) (t : Fin cfg0.N) (k : Fin 512) :
    ((cfg0.win 4).blk t).view.read (Elt Ideal) f (ix2 (0 : Fin 1) k) = f (ix2 (0 : Fin 1) k) := by
  obtain ⟨-, -, -, -, -, -, -, -, e0, e1, -⟩ := idx_facts t
  have hemb : ((cfg0.win 4).blk t).view.emb (ix2 (0 : Fin 1) k) = (ix2 (0 : Fin 1) k : S1x512.Idx) := funext fun a => Fin.ext (by
    match a with
    | ⟨0, _⟩ => show win0_4.index t (0 : Fin 2) * 1 + 1 * 0 = 0; omega
    | ⟨1, _⟩ => show win0_4.index t (1 : Fin 2) * 512 + 1 * k.val = k.val; omega)
  show f (((cfg0.win 4).blk t).view.emb (ix2 (0 : Fin 1) k)) = _
  rw [hemb]

theorem read5 (f : S512x128.Idx → EReal) (t : Fin cfg0.N) (k : Fin 512) (j : Fin 128) :
    ((cfg0.win 5).blk t).view.read (Elt Ideal) f (ix2 k j) = f (ix2 k j) := by
  obtain ⟨-, -, -, -, -, -, -, -, -, -, e0, e1, -⟩ := idx_facts t
  have hemb : ((cfg0.win 5).blk t).view.emb (ix2 k j) = (ix2 k j : S512x128.Idx) := funext fun a => Fin.ext (by
    match a with
    | ⟨0, _⟩ => show win0_5.index t (0 : Fin 2) * 512 + 1 * k.val = k.val; omega
    | ⟨1, _⟩ => show win0_5.index t (1 : Fin 2) * 128 + 1 * j.val = j.val; omega)
  show f (((cfg0.win 5).blk t).view.emb (ix2 k j)) = _
  rw [hemb]

theorem read6 (f : S1x128.Idx → EReal) (t : Fin cfg0.N) (j : Fin 128) :
    ((cfg0.win 6).blk t).view.read (Elt Ideal) f (ix2 (0 : Fin 1) j) = f (ix2 (0 : Fin 1) j) := by
  obtain ⟨-, -, -, -, -, -, -, -, -, -, -, -, e0, e1, -⟩ := idx_facts t
  have hemb : ((cfg0.win 6).blk t).view.emb (ix2 (0 : Fin 1) j) = (ix2 (0 : Fin 1) j : S1x128.Idx) := funext fun a => Fin.ext (by
    match a with
    | ⟨0, _⟩ => show win0_6.index t (0 : Fin 2) * 1 + 1 * 0 = 0; omega
    | ⟨1, _⟩ => show win0_6.index t (1 : Fin 2) * 128 + 1 * j.val = j.val; omega)
  show f (((cfg0.win 6).blk t).view.emb (ix2 (0 : Fin 1) j)) = _
  rw [hemb]

/-! ## The blocks the body holds at point `t`, read at an index

Each is the window's array as the region finds it, read through the block: an argument array as launched, a
neighbour average of the arguments, or a bias vector recast as one row. -/

theorem iblk0 (c : Dev nD) (t : Fin cfg0.N) (p : Fin 2000) (q : Fin 128) :
    iblk m c 0 t (ix2 p q) = m ((c : Thread nD τ).loc main_arg0) (ix2 (row t p) q) :=
  (read0 (V m c (Pipeline.arrRef spec0 0)) t p q).trans (congrFun (V_main_arg0 m c) (ix2 (row t p) q))

theorem iblk1 (c : Dev nD) (t : Fin cfg0.N) (p : Fin 2000) (q : Fin 128) :
    iblk m c 1 t (ix2 p q) = entAvg (m ((c : Thread nD τ).loc main_arg1)) (m ((c : Thread nD τ).loc main_arg3)) (m ((c : Thread nD τ).loc main_arg4)) (ix2 (row t p) q) :=
  (read1 (V m c (Pipeline.arrRef spec0 1)) t p q).trans (congrFun (V_main_v18 m c) (ix2 (row t p) q))

theorem iblk2 (c : Dev nD) (t : Fin cfg0.N) (p : Fin 2000) (q : Fin 128) :
    iblk m c 2 t (ix2 p q) = topAvg (m ((c : Thread nD τ).loc main_arg2)) (m ((c : Thread nD τ).loc main_arg5)) (m ((c : Thread nD τ).loc main_arg6)) (ix2 (row t p) q) :=
  (read2 (V m c (Pipeline.arrRef spec0 2)) t p q).trans (congrFun (V_main_v37 m c) (ix2 (row t p) q))

theorem iblk3 (c : Dev nD) (t : Fin cfg0.N) (l : Fin 384) (k : Fin 512) :
    iblk m c 3 t (ix2 l k) = m ((c : Thread nD τ).loc main_arg7) (ix2 l k) :=
  (read3 (V m c (Pipeline.arrRef spec0 3)) t l k).trans (congrFun (V_main_arg7 m c) (ix2 l k))

theorem iblk4 (c : Dev nD) (t : Fin cfg0.N) (k : Fin 512) :
    iblk m c 4 t (ix2 (0 : Fin 1) k) = m ((c : Thread nD τ).loc main_arg8) (ix1 k) :=
  ((read4 (V m c (Pipeline.arrRef spec0 4)) t k).trans (congrFun (V_main_v38 m c) (ix2 (0 : Fin 1) k))).trans
    (shapeCast_a_1a_apply _ _ (0 : Fin 1) k)

theorem iblk5 (c : Dev nD) (t : Fin cfg0.N) (k : Fin 512) (j : Fin 128) :
    iblk m c 5 t (ix2 k j) = m ((c : Thread nD τ).loc main_arg9) (ix2 k j) :=
  (read5 (V m c (Pipeline.arrRef spec0 5)) t k j).trans (congrFun (V_main_arg9 m c) (ix2 k j))

theorem iblk6 (c : Dev nD) (t : Fin cfg0.N) (j : Fin 128) :
    iblk m c 6 t (ix2 (0 : Fin 1) j) = m ((c : Thread nD τ).loc main_arg10) (ix1 j) :=
  ((read6 (V m c (Pipeline.arrRef spec0 6)) t j).trans (congrFun (V_main_v39 m c) (ix2 (0 : Fin 1) j))).trans
    (shapeCast_a_1a_apply _ _ (0 : Fin 1) j)

end Cert.KernelIdeal.BlockReads

end
-- ==== Proof.ArrayValue.lean ====
/-
  From what each grid point writes back to the whole result array.

  What point t writes back is the body's stored value of the blocks it holds; read entry by entry through the block
  reads, that is the specification's function restricted to rows 2000 t … 2000 t + 1999. Every row r lies in the
  block of point r / 2000, so the 50 blocks cover the result array, which therefore ends holding the function.
-/
import proofs.«176909_j71502615544009_1_alg».proof.Proof.Gen.KernelIdeal.Value
import proofs.«176909_j71502615544009_1_alg».proof.Proof.BodyValue
import proofs.«176909_j71502615544009_1_alg».proof.Proof.BlockReads
import proofs.«176909_j71502615544009_1_alg».proof.Proof.Spec

noncomputable section

namespace Cert.KernelIdeal.ArrayValue

open Cert.KernelIdeal Cert.KernelIdeal.Gen Idealize.ShloMosaic Idealize.ShloMosaic.TcCoe Idealize.SL.Sem
open Idealize.ShloMosaic.ValueIdx Cert.LibConcat3 Cert.KernelIdeal.HostArrays Cert.KernelIdeal.BlockReads
open Idealize.ShloMosaic.Pipeline (Dat)

variable (m : (ℓ : Loc nD τ sig) → Buf (Elt Ideal) ℓ) (ρ : Dev nD → PrngReg)

/-- An output lane depends only on the row's features, the weights and the biases. -/
theorem out_congr {x x' : Fin 384 → EReal} {w1 w1' : Fin 384 → Fin 512 → EReal} {b1 b1' : Fin 512 → EReal}
    {w2 w2' : Fin 512 → Fin 128 → EReal} {b2 b2' : Fin 128 → EReal}
    (hx : x = x') (h1 : w1 = w1') (hb1 : b1 = b1') (h2 : w2 = w2') (hb2 : b2 = b2') (j : Fin 128) :
    Cert.Mlp.out x w1 b1 w2 b2 j = Cert.Mlp.out x' w1' b1' w2' b2' j := by
  subst hx h1 hb1 h2 hb2; rfl

/-! ## The result array -/

/-- The result array the run ends with: the specification's function of the first feature array as launched, the
    two neighbour averages of the arguments, the weights and the biases. -/
def result (c : Dev nD) : S100000x128.Idx → EReal :=
  Cert.Mlp.G (m ((c : Thread nD τ).loc main_arg0))
    (entAvg (m ((c : Thread nD τ).loc main_arg1)) (m ((c : Thread nD τ).loc main_arg3)) (m ((c : Thread nD τ).loc main_arg4)))
    (topAvg (m ((c : Thread nD τ).loc main_arg2)) (m ((c : Thread nD τ).loc main_arg5)) (m ((c : Thread nD τ).loc main_arg6)))
    (m ((c : Thread nD τ).loc main_arg7)) (m ((c : Thread nD τ).loc main_arg8))
    (m ((c : Thread nD τ).loc main_arg9)) (m ((c : Thread nD τ).loc main_arg10))

/-- **What point `t` writes back is block `t` of the result.** -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S2000x128) hz, View.ld_unit_zero (S := S384x512) hz, View.ld_unit_zero (S := S1x512) hz,
    View.ld_unit_zero (S := S512x128) hz, View.ld_unit_zero (S := S1x128) hz]
  funext y
  obtain ⟨p, q, rfl⟩ : ∃ (p : Fin 2000) (q : Fin 128), y = ix2 p q := ⟨y 0, y 1, eq_ix2 y⟩
  obtain ⟨-, -, -, -, -, -, -, -, -, -, -, -, -, -, e0, e1⟩ := idx_facts t
  have hemb : ((cfg0.win 7).blk t).view.emb (ix2 p q) = (ix2 (row t p) q : S100000x128.Idx) := funext fun a => Fin.ext (by
    match a with
    | ⟨0, _⟩ => show win0_7.index t (0 : Fin 2) * 2000 + 1 * p.val = t.val * 2000 + p.val; omega
    | ⟨1, _⟩ => show win0_7.index t (1 : Fin 2) * 128 + 1 * q.val = q.val; omega)
  show k0_pay1 (F := Ideal) (iblk m c 0 t) (iblk m c 1 t) (iblk m c 2 t) (iblk m c 3 t) (iblk m c 4 t) (iblk m c 5 t) (iblk m c 6 t) (ix2 p q)
    = result m c (((cfg0.win 7).blk t).view.emb (ix2 p q))
  refine (BodyValue.pay_apply (iblk m c 0 t) (iblk m c 1 t) (iblk m c 2 t) (iblk m c 3 t) (iblk m c 4 t) (iblk m c 5 t) (iblk m c 6 t) p q).trans ?_
  rw [hemb]
  unfold result
  rw [Cert.Mlp.G_ix2]
  exact out_congr
    (side3_congr Cert.Mlp.e384 (fun q => iblk0 m c t p q) (fun q => iblk1 m c t p q) (fun q => iblk2 m c t p q))
    (funext fun l => funext fun k => iblk3 m c t l k) (funext fun k => iblk4 m c t k)
    (funext fun k => funext fun j => iblk5 m c t k j) (funext fun j => iblk6 m c t j) q

/-- An index of the array is in point `t`'s block iff each coordinate is in the block's range on its axis. -/
theorem mem_blk (t : Fin cfg0.N) (i : S100000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v40).slice (win0_7.rect t)).set ↔ _
  rw [View.set_slice_whole, Rect.mem_set_unit]
  exact Iff.rfl

/-- Every index of the result array is in the block of the point that holds its row. -/
theorem cover (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, -, -, -, -, -, -, -, -, -, -, e0, e1⟩ := idx_facts ⟨(i 0).val / 2000, ht⟩
  refine ⟨⟨(i 0).val / 2000, ht⟩, flush0_7 _, ?_⟩
  rw [mem_blk]
  intro a
  match a with
  | ⟨0, _⟩ =>
    show win0_7.index ⟨(i 0).val / 2000, ht⟩ (0 : Fin 2) * 2000 ≤ (i 0).val ∧ (i 0).val < win0_7.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_7.index ⟨(i 0).val / 2000, ht⟩ (1 : Fin 2) * 128 ≤ (i 1).val ∧ (i 1).val < win0_7.index ⟨(i 0).val / 2000, ht⟩ (1 : Fin 2) * 128 + 128
    rw [e1]
    omega

/-- **The result array after the run** is the specification's function. -/
theorem final (c : Dev nD) : (dats m 0 c).arrAt 7 cfg0.N = result m c :=
  (dats m 0 c).arrAt_eq_of_cover 7 (result m c) (fun t _ => flushed_eq m c t) cover

/-- The kernel's run: every weakly fair execution terminates with the result array at the specification's function
    and the arguments unchanged. -/
theorem run : θ_run defs (onTc (τ := τ) (main (F := Ideal))) ⟨m, fun _ => 0, ρ⟩ fun r => ∀ c : Dev nD,
      r.2.mem ((c : Thread nD τ).loc main_v40) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.ArrayValue

end
-- ==== Proof.RefValue.lean ====
/-
  The reference's result, entry by entry, is the specification's function.

  The reference lays the three [100000, 128] arrays side by side, multiplies by the first weight matrix, adds the
  first bias broadcast over the rows, applies tanh, multiplies by the second weight matrix and adds the second bias.
  Read at row r and lane j, each matrix product is the sum over its contracted axis, each bias is read at its lane,
  and the joined array at lane l is the piece whose lanes hold l. The second and third of the three arrays are the
  two neighbour averages, which are kept here as the opaque stages that compute them: nothing about them is used.
-/
import proofs.«176909_j71502615544009_1_alg».proof.Proof.Gen.ReferenceIdeal.Read
import proofs.«176909_j71502615544009_1_alg».proof.Proof.Spec

noncomputable section

namespace Cert.ReferenceIdeal.RefValue

open Cert.ReferenceIdeal Cert.ReferenceIdeal.Read Idealize.ShloMosaic Idealize.ShloMosaic.ValueIdx Cert.LibConcat3

/-- **The reference's last stage is the specification's function** of the first feature array, the two neighbour
    averages, the weights and the biases. -/
theorem result_eq (x0 : (⟨S100000x128, .f32⟩ : BufTy).Contents (Elt Ideal)) (x1 : (⟨S50000x128, .f32⟩ : BufTy).Contents (Elt Ideal))
    (x2 : (⟨S2000x128, .f32⟩ : BufTy).Contents (Elt Ideal)) (x3 x4 x5 x6 : (⟨S1600000, .i32⟩ : BufTy).Contents (Elt Ideal))
    (x7 : (⟨S384x512, .f32⟩ : BufTy).Contents (Elt Ideal)) (x8 : (⟨S512, .f32⟩ : BufTy).Contents (Elt Ideal))
    (x9 : (⟨S512x128, .f32⟩ : BufTy).Contents (Elt Ideal)) (x10 : (⟨S128, .f32⟩ : BufTy).Contents (Elt Ideal)) :
    val_main_v47 (F := Ideal) x0 x1 x2 x3 x4 x5 x6 x7 x8 x9 x10
      = Cert.Mlp.G x0 (val_main_v18 (F := Ideal) x1 x3 x4) (val_main_v37 (F := Ideal) x2 x5 x6) x7 x8 x9 x10 := by
  funext i
  obtain ⟨r, j, rfl⟩ : ∃ (r : Fin 100000) (j : Fin 128), i = ix2 r j := ⟨i 0, i 1, eq_ix2 i⟩
  rw [Cert.Mlp.G_ix2, val_main_v47_apply, val_main_v44_apply, val_main_v46_apply, val_main_v45_apply]
  unfold Cert.Mlp.out
  have e1 : ∀ k : Fin 512, lidx_main_v44 (ix2 r j) k = ix2 r k := fun k => funext fun a => Fin.ext (by
    match a with
    | ⟨0, _⟩ => rfl
    | ⟨1, _⟩ => rfl)
  have e2 : ∀ k : Fin 512, ridx_main_v44 (ix2 r j) k = ix2 k j := fun k => funext fun a => Fin.ext (by
    match a with
    | ⟨0, _⟩ => rfl
    | ⟨1, _⟩ => rfl)
  have e3 : idx_main_v45 (idx_main_v46 (ix2 r j)) = ix1 j := funext fun a => Fin.ext (by
    match a with
    | ⟨0, _⟩ => rfl)
  simp only [e1, e2, e3]
  show (∑ k : Fin 512, _) + x10 (ix1 j) = _
  refine congrArg (· + x10 (ix1 j)) (Finset.sum_congr rfl fun k _ => ?_)
  rw [val_main_v43_apply, val_main_v42_apply, val_main_v39_apply, val_main_v41_apply, val_main_v40_apply]
  unfold Cert.Mlp.hidden
  have f1 : ∀ l : Fin 384, lidx_main_v39 (ix2 r k) l = ix2 r l := fun l => funext fun a => Fin.ext (by
    match a with
    | ⟨0, _⟩ => rfl
    | ⟨1, _⟩ => rfl)
  have f2 : ∀ l : Fin 384, ridx_main_v39 (ix2 r k) l = ix2 l k := fun l => funext fun a => Fin.ext (by
    match a with
    | ⟨0, _⟩ => rfl
    | ⟨1, _⟩ => rfl)
  have f3 : idx_main_v40 (idx_main_v41 (ix2 r k)) = ix1 k := funext fun a => Fin.ext (by
    match a with
    | ⟨0, _⟩ => rfl)
  simp only [f1, f2, f3]
  show Ideal.tanh ((∑ l : Fin 384, _) + x8 (ix1 k)) * x9 (ix2 k j) = _
  refine congrArg (fun z => Ideal.tanh (z + x8 (ix1 k)) * x9 (ix2 k j)) (Finset.sum_congr rfl fun l _ => ?_)
  unfold val_main_v38
  exact congrArg (· * x7 (ix2 l k)) (concatenate3_lanes_apply Cert.Mlp.e384 _ _ _ _ r l)

end Cert.ReferenceIdeal.RefValue

end
-- ==== Proof.SameAverages.lean ====
/-
  The two neighbour averages are the same functions in both programs.

  The kernel's program and the reference compute each average by the same operations on the same arguments — the
  same gather, the same two sums into buckets, the same small constant, the same division —, each program naming the
  operations' dimension records for itself. Record by record the two spellings have the same fields, so the averages
  are equal without opening any operation.
-/
import proofs.«176909_j71502615544009_1_alg».proof.Proof.HostArrays
import proofs.«176909_j71502615544009_1_alg».proof.Proof.Gen.ReferenceIdeal.Read

noncomputable section

namespace Cert.SameAverages

open Idealize.ShloMosaic

/-- The entity average of the kernel's program is the reference's stage of the same name. -/
theorem entAvg_eq (x1 : FVec Ideal Cert.KernelIdeal.S50000x128 .f32) (x3 x4 : IVec Cert.KernelIdeal.S1600000 32) :
    Cert.KernelIdeal.HostArrays.entAvg x1 x3 x4 = Cert.ReferenceIdeal.Read.val_main_v18 (F := Ideal) x1 x3 x4 := rfl

/-- The topic average of the kernel's program is the reference's stage of the same name. -/
theorem topAvg_eq (x2 : FVec Ideal Cert.KernelIdeal.S2000x128 .f32) (x5 x6 : IVec Cert.KernelIdeal.S1600000 32) :
    Cert.KernelIdeal.HostArrays.topAvg x2 x5 x6 = Cert.ReferenceIdeal.Read.val_main_v37 (F := Ideal) x2 x5 x6 := rfl

end Cert.SameAverages

end
-- ==== Proof.lean ====
/- The kernel and its reference compute one function on the extended reals.

   Both programs first average, for each of 100000 rows, the entity rows and the topic rows linked to it, by the same
   host operations; then they lay the row's own features and the two averages side by side (384 features), apply a
   layer of 512 tanh units and a layer of 128 outputs. The kernel does the two layers 2000 rows at a time over a grid
   of 50 points, rounding to bf16 before each matrix product; the reference does them on the whole array. On the
   extended reals rounding is the identity and each matrix product is one finite sum over the contracted axis, taken
   in one piece by both programs, so the results agree entry by entry with no use of the inputs' finiteness.

   The three frames are the generated ones (the reference's is its generated run with the result dropped); the
   idealization rewrote nothing, so it is preserved trivially; the value claim sets the kernel's run, read block by
   block into the whole array, beside the reference's run, read one operation at a time. -/
import proofs.«176909_j71502615544009_1_alg».proof.Defs
import proofs.«176909_j71502615544009_1_alg».proof.Proof.Gen.Kernel
import proofs.«176909_j71502615544009_1_alg».proof.Proof.Gen.Kernel.Skeleton
import proofs.«176909_j71502615544009_1_alg».proof.Proof.Gen.Kernel.Launch
import proofs.«176909_j71502615544009_1_alg».proof.Proof.Gen.Kernel.Points
import proofs.«176909_j71502615544009_1_alg».proof.Proof.Gen.Kernel.Frame
import proofs.«176909_j71502615544009_1_alg».proof.Proof.Gen.KernelIdeal
import proofs.«176909_j71502615544009_1_alg».proof.Proof.Gen.KernelIdeal.Skeleton
import proofs.«176909_j71502615544009_1_alg».proof.Proof.Gen.KernelIdeal.Launch
import proofs.«176909_j71502615544009_1_alg».proof.Proof.Gen.KernelIdeal.Points
import proofs.«176909_j71502615544009_1_alg».proof.Proof.Gen.KernelIdeal.Frame
import proofs.«176909_j71502615544009_1_alg».proof.Proof.Gen.ReferenceIdeal
import proofs.«176909_j71502615544009_1_alg».proof.Proof.Gen.KernelIdeal.Value
import proofs.«176909_j71502615544009_1_alg».proof.Proof.Gen.ReferenceIdeal.Run
import proofs.«176909_j71502615544009_1_alg».proof.Proof.Gen.ReferenceIdeal.Read
import proofs.«176909_j71502615544009_1_alg».proof.Proof.Gen.Pre_finite_inputs
import proofs.«176909_j71502615544009_1_alg».proof.Proof.ArrayValue
import proofs.«176909_j71502615544009_1_alg».proof.Proof.RefValue
import proofs.«176909_j71502615544009_1_alg».proof.Proof.SameAverages
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification's function of the first
    feature array, the two neighbour averages, the weights and the biases: the kernel by its run read into the
    whole array, the reference by its run read one operation at a time, the averages the same in both. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [a0, a1, a2, a3, a4, a5, a6, a7, a8, a9, a10, Cert.ReferenceIdeal.Read.val_main_v47_eq,
    Cert.ReferenceIdeal.RefValue.result_eq]
  show _ = Cert.KernelIdeal.ArrayValue.result m c
  unfold Cert.KernelIdeal.ArrayValue.result
  rw [Cert.SameAverages.entAvg_eq, Cert.SameAverages.topAvg_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
